-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x2 : Shape := ⟨2, ![120000, 2]⟩
abbrev S1024x2 : Shape := ⟨2, ![1024, 2]⟩
abbrev S1027x2 : Shape := ⟨2, ![1027, 2]⟩
abbrev S_ : Shape := ⟨0, ![]⟩

class Facts : Prop where
  bcast_S_S120000x2 : S_.BroadcastsInDim S120000x2 (![] : Fin 0 → Fin S120000x2.rank)
  reducesTo_S120000x2_S_d0_1 : S120000x2.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S1027x2 : S_.BroadcastsInDim S1027x2 (![] : Fin 0 → Fin S1027x2.rank)
  reducesTo_S1027x2_S_d0_1 : S1027x2.ReducesTo [0, 1] S_

variable [Facts]

def fn {F : FTy → Type} [FloatOps F] (main_arg0 : FVec F S120000x2 .f32) (main_arg1 : FVec F S1024x2 .f32) (main_arg2 : FVec F S1027x2 .f32) : IVec S_ 1 :=
  let main_v0 : FVec F S120000x2 .f32 := Host.absf main_arg0
  let main_cst : FVec F S_ .f32 := constant S_ .f32 0x7F800000#32
  let main_v1 : FVec F S120000x2 .f32 := broadcastInDim S120000x2 ![] bcast_S_S120000x2 main_cst
  let main_v2 : IVec S120000x2 1 := cmpf .olt main_v0 main_v1
  let main_c : IVec S_ 1 := constantI S_ 1 1#1
  let main_v3 : IVec S_ 1 := (fun x v => Host.reduce IntOp.andi x v reducesTo_S120000x2_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S1027x2 .f32 := Host.absf main_arg2
  let main_cst_2 : FVec F S_ .f32 := constant S_ .f32 0x7F800000#32
  let main_v10 : FVec F S1027x2 .f32 := broadcastInDim S1027x2 ![] bcast_S_S1027x2 main_cst_2
  let main_v11 : IVec S1027x2 1 := cmpf .olt main_v9 main_v10
  let main_c_3 : IVec S_ 1 := constantI S_ 1 1#1
  let main_v12 : IVec S_ 1 := (fun x v => Host.reduce IntOp.andi x v reducesTo_S1027x2_S_d0_1 h_S_) main_v11 main_c_3
  let main_v13 : IVec S_ 1 := andi main_v8 main_v12
  main_v13
-- ==== Kernel.lean ====
abbrev S120000x2 : Shape := ⟨2, ![120000, 2]⟩
abbrev S1024x2 : Shape := ⟨2, ![1024, 2]⟩
abbrev S1027x2 : Shape := ⟨2, ![1027, 2]⟩
abbrev S_ : Shape := ⟨0, ![]⟩
abbrev S122880x2 : Shape := ⟨2, ![122880, 2]⟩
abbrev S2x122880 : Shape := ⟨2, ![2, 122880]⟩
abbrev S2x4096 : Shape := ⟨2, ![2, 4096]⟩
abbrev S1x4096 : Shape := ⟨2, ![1, 4096]⟩
abbrev S4096 : Shape := ⟨1, ![4096]⟩
abbrev S256x1 : Shape := ⟨2, ![256, 1]⟩
abbrev S256x4096 : Shape := ⟨2, ![256, 4096]⟩
abbrev S3x2 : Shape := ⟨2, ![3, 2]⟩
abbrev S1x1 : Shape := ⟨2, ![1, 1]⟩

abbrev nBuf : Space → Nat
  | .hbm => 10
  | .vmem => 7
  | .smem => 0
  | _ => 0

abbrev bufTy : (tb : Table) → Fin (tcTables nBuf tb) → BufTy
  | .hbm, ⟨0, _⟩ => ⟨S120000x2, .f32⟩
  | .hbm, ⟨1, _⟩ => ⟨S1024x2, .f32⟩
  | .hbm, ⟨2, _⟩ => ⟨S1027x2, .f32⟩
  | .hbm, ⟨3, _⟩ => ⟨S_, .i32⟩
  | .hbm, ⟨4, _⟩ => ⟨S_, .f32⟩
  | .hbm, ⟨5, _⟩ => ⟨S122880x2, .f32⟩
  | .hbm, ⟨6, _⟩ => ⟨S2x122880, .f32⟩
  | .hbm, ⟨7, _⟩ => ⟨S2x122880, .f32⟩
  | .hbm, ⟨8, _⟩ => ⟨S122880x2, .f32⟩
  | .hbm, ⟨9, _⟩ => ⟨S120000x2, .f32⟩
  | .local _ .vmem, ⟨0, _⟩ => ⟨S2x4096, .f32⟩
  | .local _ .vmem, ⟨1, _⟩ => ⟨S2x4096, .f32⟩
  | .local _ .vmem, ⟨2, _⟩ => ⟨S1024x2, .f32⟩
  | .local _ .vmem, ⟨3, _⟩ => ⟨S1027x2, .f32⟩
  | .local _ .vmem, ⟨4, _⟩ => ⟨S2x4096, .f32⟩
  | .local _ .vmem, ⟨5, _⟩ => ⟨S2x4096, .f32⟩
  | .local _ .vmem, ⟨6, _⟩ => ⟨S2x4096, .f32⟩
  | _, _ => ⟨S120000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![30], ![false]⟩

@[reducible] def k0_t1_loop : Scf.Loop 32 :=
  let c0_i32 : BitVec 32 := 0#32
  let c4_i32 : BitVec 32 := 4#32
  let v8 : BitVec 32 := Scalar.addi c0_i32 c4_i32
  let c1_i32 : BitVec 32 := 1#32
  ⟨c0_i32, v8, c1_i32⟩
def k0_mult1 (k0_t1 : Fin k0_t1_loop.trips) : BitVec 32 :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v50 : BitVec 32 := Scalar.muli arg6 c1_i32_14
  let v51 : BitVec 32 := Scalar.addi c0_i32_15 v50
  let c256_i32 : BitVec 32 := 256#32
  let v52 : BitVec 32 := Scalar.muli v51 c256_i32
  v52
def k0_off1 (k0_t1 : Fin k0_t1_loop.trips) : Fin 2 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v50 : BitVec 32 := Scalar.muli arg6 c1_i32_14
  let v51 : BitVec 32 := Scalar.addi c0_i32_15 v50
  let c256_i32 : BitVec 32 := 256#32
  let v52 : BitVec 32 := Scalar.muli v51 c256_i32
  let v53 : BitVec 32 := v52
  let v54 : Index := Scalar.indexCast v53
  let c0_16 : Index := 0#32
  ![v54.toNat, 0]
def k0_off2 (k0_t1 : Fin k0_t1_loop.trips) : Fin 2 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v50 : BitVec 32 := Scalar.muli arg6 c1_i32_14
  let v51 : BitVec 32 := Scalar.addi c0_i32_15 v50
  let c256_i32 : BitVec 32 := 256#32
  let v52 : BitVec 32 := Scalar.muli v51 c256_i32
  let v53 : BitVec 32 := v52
  let v56 : Index := Scalar.indexCast v53
  let c1_17 : Index := 1#32
  ![v56.toNat, 1]
def k0_off3 (k0_t1 : Fin k0_t1_loop.trips) : Fin 2 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v50 : BitVec 32 := Scalar.muli arg6 c1_i32_14
  let v51 : BitVec 32 := Scalar.addi c0_i32_15 v50
  let c256_i32 : BitVec 32 := 256#32
  let v52 : BitVec 32 := Scalar.muli v51 c256_i32
  let v53 : BitVec 32 := v52
  let v77 : Index := Scalar.indexCast v53
  let c0_21 : Index := 0#32
  ![v77.toNat, 0]
def k0_off4 (k0_t1 : Fin k0_t1_loop.trips) : Fin 2 → Nat :=
  let c0_i32_15 : BitVec 32 := 0#32
  let c0_i32 : BitVec 32 := 0#32
  let c1_i32 : BitVec 32 := 1#32
  let arg6 : BitVec 32 := Scf.iv c0_i32 c1_i32 k0_t1
  let c1_i32_14 : BitVec 32 := 1#32
  let v50 : BitVec 32 := Scalar.muli arg6 c1_i32_14
  let v51 : BitVec 32 := Scalar.addi c0_i32_15 v50
  let c256_i32 : BitVec 32 := 256#32
  let v52 : BitVec 32 := Scalar.muli v51 c256_i32
  let v53 : BitVec 32 := v52
  let v79 : Index := Scalar.indexCast v53
  let c1_22 : Index := 1#32
  ![v79.toNat, 1]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1027x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S120000x2_S122880x2_028800_000 : S120000x2.Pads (![0, 0] : Fin 2 → Nat) ![2880, 0] ![0, 0] S122880x2
  h_S_ : 0 < S_.numel
  transposes_S122880x2_S2x122880_1_0 : S122880x2.Transposes [1, 0] S2x122880
  inb_S2x4096_S1x4096_0_0 : ∀ a, (![0, 0] : Fin 2 → Nat) a + S1x4096.size a ≤ S2x4096.size a
  h_S1x4096 : 0 < S1x4096.numel
  shapeCasts_S1x4096_S4096 : S1x4096.ShapeCasts S4096
  inb_S2x4096_S1x4096_1_0 : ∀ a, (![1, 0] : Fin 2 → Nat) a + S1x4096.size a ≤ S2x4096.size a
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  h_S256x1 : 0 < S256x1.numel
  shapeCasts_S4096_S1x4096 : S4096.ShapeCasts S1x4096
  broadcasts_S256x1_S256x4096 : S256x1.Broadcasts S256x4096
  broadcasts_S1x4096_S256x4096 : S1x4096.Broadcasts S256x4096
  reduces_S256x4096_S4096 : S256x4096.Reduces [0] S4096
  inb_S1027x2_S3x2_1024_0 : ∀ a, (![1024, 0] : Fin 2 → Nat) a + S3x2.size a ≤ S1027x2.size a
  h_S3x2 : 0 < S3x2.numel
  slices_S3x2_o0_0_S1x1 : S3x2.Slices ![0, 0] S1x1
  inpos_S1x1_p0_0 : ∀ a, (![0, 0] : Fin 2 → Nat) a < S1x1.size a
  slices_S3x2_o1_0_S1x1 : S3x2.Slices ![1, 0] S1x1
  slices_S3x2_o2_0_S1x1 : S3x2.Slices ![2, 0] S1x1
  slices_S3x2_o0_1_S1x1 : S3x2.Slices ![0, 1] S1x1
  slices_S3x2_o1_1_S1x1 : S3x2.Slices ![1, 1] S1x1
  slices_S3x2_o2_1_S1x1 : S3x2.Slices ![2, 1] S1x1
  transposes_S2x122880_S122880x2_1_0 : S2x122880.Transposes [1, 0] S122880x2
  slices_S122880x2_S120000x2_0_0 : S122880x2.Slices ![0, 0] S120000x2
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x1.size a ≤ S1024x2.size a
  k0_off2_inb : ∀ k0_t1 : Fin k0_t1_loop.trips, ∀ a, (k0_off2 k0_t1) a + S256x1.size a ≤ S1024x2.size a
  k0_off3_inb : ∀ k0_t1 : Fin k0_t1_loop.trips, ∀ a, (k0_off3 k0_t1) a + S256x1.size a ≤ S1027x2.size a
  k0_off4_inb : ∀ k0_t1 : Fin k0_t1_loop.trips, ∀ a, (k0_off4 k0_t1) a + S256x1.size a ≤ S1027x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096.size a ≤ S2x122880.size a
  hwx0_0 : ∀ i : grid0.Coords, EltTy.bits .f32 = 32 ∨ (Rect.block (s := S2x122880) S2x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S1024x2.size a
  hwx0_1 : ∀ i : grid0.Coords, EltTy.bits .f32 = 32 ∨ (Rect.block (s := S1024x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1027x2.size a ≤ S1027x2.size a
  hwx0_2 : ∀ i : grid0.Coords, EltTy.bits .f32 = 32 ∨ (Rect.block (s := S1027x2) S1027x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4096.size a ≤ S2x122880.size a
  hwx0_3 : ∀ i : grid0.Coords, EltTy.bits .f32 = 32 ∨ (Rect.block (s := S2x122880) S2x4096.size (cc0_transform_3 i) (hinb0_3 i)).WholeWords (EltTy.packing .f32)

variable [Facts₀]

abbrev win0_0 : Pipeline.Window sig grid0 :=
  Pipeline.Window.ofSpec (Memref.whole main_v1) S2x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1027x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S120000x2 : Shape := ⟨2, ![120000, 2]⟩
abbrev S1024x2 : Shape := ⟨2, ![1024, 2]⟩
abbrev S1027x2 : Shape := ⟨2, ![1027, 2]⟩
abbrev S1024x1x2 : Shape := ⟨3, ![1024, 1, 2]⟩
abbrev S1x120000x2 : Shape := ⟨3, ![1, 120000, 2]⟩
abbrev S1024x120000x2 : Shape := ⟨3, ![1024, 120000, 2]⟩
abbrev S_ : Shape := ⟨0, ![]⟩
abbrev S1024x120000 : Shape := ⟨2, ![1024, 120000]⟩
abbrev S120000x1 : Shape := ⟨2, ![120000, 1]⟩
abbrev S120000 : Shape := ⟨1, ![120000]⟩
abbrev S1x120000 : Shape := ⟨2, ![1, 120000]⟩
abbrev S3x120000 : Shape := ⟨2, ![3, 120000]⟩
abbrev S1027x120000 : Shape := ⟨2, ![1027, 120000]⟩
abbrev S120000x1027 : Shape := ⟨2, ![120000, 1027]⟩

abbrev nBuf : Space → Nat
  | .hbm => 39
  | .vmem => 0
  | .smem => 0
  | _ => 0

abbrev bufTy : (tb : Table) → Fin (tcTables nBuf tb) → BufTy
  | .hbm, ⟨0, _⟩ => ⟨S120000x2, .f32⟩
  | .hbm, ⟨1, _⟩ => ⟨S1024x2, .f32⟩
  | .hbm, ⟨2, _⟩ => ⟨S1027x2, .f32⟩
  | .hbm, ⟨3, _⟩ => ⟨S1024x1x2, .f32⟩
  | .hbm, ⟨4, _⟩ => ⟨S1x120000x2, .f32⟩
  | .hbm, ⟨5, _⟩ => ⟨S1024x120000x2, .f32⟩
  | .hbm, ⟨6, _⟩ => ⟨S1024x120000x2, .f32⟩
  | .hbm, ⟨7, _⟩ => ⟨S1024x120000x2, .f32⟩
  | .hbm, ⟨8, _⟩ => ⟨S1024x120000x2, .f32⟩
  | .hbm, ⟨9, _⟩ => ⟨S_, .f32⟩
  | .hbm, ⟨10, _⟩ => ⟨S1024x120000, .f32⟩
  | .hbm, ⟨11, _⟩ => ⟨S_, .f32⟩
  | .hbm, ⟨12, _⟩ => ⟨S1024x120000, .f32⟩
  | .hbm, ⟨13, _⟩ => ⟨S1024x120000, .i1⟩
  | .hbm, ⟨14, _⟩ => ⟨S_, .f32⟩
  | .hbm, ⟨15, _⟩ => ⟨S_, .f32⟩
  | .hbm, ⟨16, _⟩ => ⟨S1024x120000, .f32⟩
  | .hbm, ⟨17, _⟩ => ⟨S1024x120000, .f32⟩
  | .hbm, ⟨18, _⟩ => ⟨S_, .f32⟩
  | .hbm, ⟨19, _⟩ => ⟨S1024x120000, .f32⟩
  | .hbm, ⟨20, _⟩ => ⟨S1024x120000, .f32⟩
  | .hbm, ⟨21, _⟩ => ⟨S1024x120000, .f32⟩
  | .hbm, ⟨22, _⟩ => ⟨S1024x120000, .f32⟩
  | .hbm, ⟨23, _⟩ => ⟨S120000x1, .f32⟩
  | .hbm, ⟨24, _⟩ => ⟨S120000, .f32⟩
  | .hbm, ⟨25, _⟩ => ⟨S_, .f32⟩
  | .hbm, ⟨26, _⟩ => ⟨S120000, .f32⟩
  | .hbm, ⟨27, _⟩ => ⟨S120000x1, .f32⟩
  | .hbm, ⟨28, _⟩ => ⟨S120000, .f32⟩
  | .hbm, ⟨29, _⟩ => ⟨S120000x1, .f32⟩
  | .hbm, ⟨30, _⟩ => ⟨S120000, .f32⟩
  | .hbm, ⟨31, _⟩ => ⟨S1x120000, .f32⟩
  | .hbm, ⟨32, _⟩ => ⟨S1x120000, .f32⟩
  | .hbm, ⟨33, _⟩ => ⟨S1x120000, .f32⟩
  | .hbm, ⟨34, _⟩ => ⟨S3x120000, .f32⟩
  | .hbm, ⟨35, _⟩ => ⟨S1027x120000, .f32⟩
  | .hbm, ⟨36, _⟩ => ⟨S120000x1027, .f32⟩
  | .hbm, ⟨37, _⟩ => ⟨S120000x2, .f32⟩
  | .hbm, ⟨38, _⟩ => ⟨S120000x2, .f32⟩
  | _, _ => ⟨S120000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S1024x2_S1024x1x2_0_2 : S1024x2.BroadcastsInDim S1024x1x2 (![0, 2] : Fin 2 → Fin S1024x1x2.rank)
  bcast_S120000x2_S1x120000x2_1_2 : S120000x2.BroadcastsInDim S1x120000x2 (![1, 2] : Fin 2 → Fin S1x120000x2.rank)
  bcast_S1024x1x2_S1024x120000x2_0_1_2 : S1024x1x2.BroadcastsInDim S1024x120000x2 (![0, 1, 2] : Fin 3 → Fin S1024x120000x2.rank)
  bcast_S1x120000x2_S1024x120000x2_0_1_2 : S1x120000x2.BroadcastsInDim S1024x120000x2 (![0, 1, 2] : Fin 3 → Fin S1024x120000x2.rank)
  reducesTo_S1024x120000x2_S1024x120000_d2 : S1024x120000x2.ReducesTo [2] S1024x120000
  h_S_ : 0 < S_.numel
  bcast_S_S1024x120000 : S_.BroadcastsInDim S1024x120000 (![] : Fin 0 → Fin S1024x120000.rank)
  slices_S120000x2_S120000x1_0_0 : S120000x2.Slices ![0, 0] S120000x1
  shapeCasts_S120000x1_S120000 : S120000x1.ShapeCasts S120000
  bcast_S_S120000 : S_.BroadcastsInDim S120000 (![] : Fin 0 → Fin S120000.rank)
  slices_S120000x2_S120000x1_0_1 : S120000x2.Slices ![0, 1] S120000x1
  bcast_S120000_S1x120000_1 : S120000.BroadcastsInDim S1x120000 (![1] : Fin 1 → Fin S1x120000.rank)
  concatenates_S1x120000_S1x120000_S1x120000_S3x120000_d0 : Shape.Concatenates [S1x120000, S1x120000, S1x120000] S3x120000 0
  concatenates_S1024x120000_S3x120000_S1027x120000_d0 : Shape.Concatenates [S1024x120000, S3x120000] S1027x120000 0
  transposes_S1027x120000_S120000x1027_1_0 : S1027x120000.Transposes [1, 0] S120000x1027
  dot_S120000x1027_S1027x2_S120000x2_1_0_0_1_n_n_wf : DotDims.WF S120000x1027 S1027x2 S120000x2 [1] [0] [0] [1] [] []

variable [Facts₀]

def dot_S120000x1027_S1027x2_S120000x2_1_0_0_1_n_n : DotDims S120000x1027 S1027x2 S120000x2 where
  lhsContracting := [1]
  rhsContracting := [0]
  lhsNonContracting := [0]
  rhsNonContracting := [1]
  lhsBatch := []
  rhsBatch := []
  wf := dot_S120000x1027_S1027x2_S120000x2_1_0_0_1_n_n_wf

class Facts : Prop extends Facts₀ where

variable [Facts]
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.Spec.lean ====
/-
  The thin-plate-spline warp of one query point, as a function on the extended reals, in two arrangements.

  For a query point `(px, py)`, control points `kps k = (kx, ky)` (`k < 1024`) and weights `W` (1027 rows, 2 columns),
  column `j` of the warped point is
      p_j + ∑_{k < 1024} φ(kps k, p) · W[k, j] + 1 · W[1024, j] + px · W[1025, j] + py · W[1026, j],
  where `φ = ½ · g · log g` is the radial basis of the guarded squared distance `g` (`1` where the distance is `0`).

  * `warpR` is the arrangement of a matrix product: one sum over the 1027 rows of the design matrix
    `[φ …; 1; px; py]` against `W`, added to `p_j`.
  * `warpK` is the arrangement of a chunked accumulation: the radial part summed 256 control points at a time into an
    accumulator that starts at `0`, then `(p_j + acc) + ((W[1024,j] + W[1025,j]·px) + W[1026,j]·py)`.

  The two are equal for ALL extended reals: only `0 + x = x`, `1 · x = x`, the commutativity of the product, and
  the commutativity and associativity of the sum are used, and these hold at the infinities too (the extended
  reals are a commutative monoid under each operation). No finiteness of the inputs is needed.
-/
import Idealize.ShloMosaic.PureOps.Ideal
import Idealize.ShloMosaic.PureOps.Ideal.Laws
import Idealize.ShloMosaic.Lib.ValueIdx
import proofs.«167071_j17463337025574_2_alg».proof.Proof.LibSumBlocks

noncomputable section

namespace Cert.Warp

open Idealize.ShloMosaic Idealize.ShloMosaic.ValueIdx

/-- The control points, `[1024, 2]`, and the weights, `[1027, 2]`, as extended-real arrays. -/
abbrev Kps := (⟨2, ![1024, 2]⟩ : Shape).Idx → EReal
abbrev Wts := (⟨2, ![1027, 2]⟩ : Shape).Idx → EReal

/-- The guarded squared distance: `1` where the squared distance is `0`, else the squared distance. -/
def guard (d : EReal) : EReal := Scalar.select (Ideal.cmp .oeq d 0) (Ideal.ofBits .f32 0x3F800000#32) d

/-- The radial basis value `½ · g · log g` of a control point `(kx, ky)` and a query point `(px, py)`. -/
def rbf (kx ky px py : EReal) : EReal :=
  Ideal.ofBits .f32 0x3F000000#32 * guard ((kx - px) * (kx - px) + (ky - py) * (ky - py))
    * Ideal.log (guard ((kx - px) * (kx - px) + (ky - py) * (ky - py)))

/-- Control point `k`'s term of the radial sum for column `j`. -/
def term (kps : Kps) (W : Wts) (px py : EReal) (j : Fin 2) (k : Fin 1024) : EReal :=
  rbf (kps (ix2 k 0)) (kps (ix2 k 1)) px py * W (ix2 ⟨k.val, by omega⟩ j)

/-- The terms of the 256 control points of chunk `c`, summed. -/
def chunk (kps : Kps) (W : Wts) (px py : EReal) (j : Fin 2) (c : Fin 4) : EReal :=
  ∑ r : Fin 256, term kps W px py j ⟨256 * c.val + r.val, by omega⟩

/-- The accumulator after the first `n` chunks, from `0`. -/
def accN (kps : Kps) (W : Wts) (px py : EReal) (j : Fin 2) : ℕ → EReal
  | 0 => 0
  | n + 1 => if h : n < 4 then accN kps W px py j n + chunk kps W px py j ⟨n, h⟩ else accN kps W px py j n

/-- The affine part `(W[1024,j] + W[1025,j]·px) + W[1026,j]·py`. -/
def affine (W : Wts) (px py : EReal) (j : Fin 2) : EReal :=
  (W (ix2 ⟨1024, by decide⟩ j) + W (ix2 ⟨1025, by decide⟩ j) * px) + W (ix2 ⟨1026, by decide⟩ j) * py

/-- The chunked arrangement. -/
def warpK (kps : Kps) (W : Wts) (pj px py : EReal) (j : Fin 2) : EReal :=
  (pj + accN kps W px py j 4) + affine W px py j

/-- Row `k` of the design matrix `[φ(kps 0, p), …, φ(kps 1023, p), 1, px, py]`. -/
def design (kps : Kps) (px py : EReal) (k : Fin 1027) : EReal :=
  if h : k.val < 1024 then rbf (kps (ix2 ⟨k.val, h⟩ 0)) (kps (ix2 ⟨k.val, h⟩ 1)) px py
  else if k.val = 1024 then 1 else if k.val = 1025 then px else py

/-- The matrix-product arrangement. -/
def warpR (kps : Kps) (W : Wts) (pj px py : EReal) (j : Fin 2) : EReal :=
  pj + ∑ k : Fin 1027, design kps px py k * W (ix2 k j)

/-- The query points, `[120000, 2]`. -/
abbrev Pts := (⟨2, ![120000, 2]⟩ : Shape).Idx → EReal

/-- THE WARPED POINTS: entry `(p, j)` is column `j` of the warp of query point `p`, in the matrix-product arrangement. -/
def warpAll (pts : Pts) (kps : Kps) (W : Wts) : (⟨2, ![120000, 2]⟩ : Shape).Idx → EReal :=
  fun i => warpR kps W (pts i) (pts (ix2 (i 0) (0 : Fin 2))) (pts (ix2 (i 0) (1 : Fin 2))) (i 1)

/-- The accumulator after all four chunks. -/
theorem accN_four (kps : Kps) (W : Wts) (px py : EReal) (j : Fin 2) :
    accN kps W px py j 4 = (((0 + chunk kps W px py j 0) + chunk kps W px py j 1) + chunk kps W px py j 2) + chunk kps W px py j 3 := by
  simp only [accN, show (3 : ℕ) < 4 by decide, show (2 : ℕ) < 4 by decide, show (1 : ℕ) < 4 by decide,
    show (0 : ℕ) < 4 by decide, dite_true]
  rfl

/-- The radial rows of the design matrix against `W`, chunk by chunk. -/
theorem radial_sum (kps : Kps) (W : Wts) (px py : EReal) (j : Fin 2) :
    ∑ i : Fin 1024, design kps px py (Fin.castAdd 3 i) * W (ix2 (Fin.castAdd 3 i) j)
      = chunk kps W px py j 0 + chunk kps W px py j 1 + chunk kps W px py j 2 + chunk kps W px py j 3 := by
  have e : ∀ i : Fin 1024, design kps px py (Fin.castAdd 3 i) * W (ix2 (Fin.castAdd 3 i) j) = term kps W px py j i := by
    intro i
    unfold design term
    rw [dif_pos (show (Fin.castAdd 3 i).val < 1024 from i.isLt)]
    rfl
  simp only [e]
  rw [Cert.SumBlocks.sum_fin_blocks 4 256 rfl, Fin.sum_univ_four]
  unfold chunk
  refine congrArg₂ (· + ·) (congrArg₂ (· + ·) (congrArg₂ (· + ·) ?_ ?_) ?_) ?_ <;>
    exact Finset.sum_congr rfl fun r _ => congrArg _ (Fin.ext (by simp))

/-- The three affine rows of the design matrix against `W`. -/
theorem affine_sum (kps : Kps) (W : Wts) (px py : EReal) (j : Fin 2) :
    ∑ i : Fin 3, design kps px py (Fin.natAdd 1024 i) * W (ix2 (Fin.natAdd 1024 i) j)
      = 1 * W (ix2 ⟨1024, by decide⟩ j) + px * W (ix2 ⟨1025, by decide⟩ j) + py * W (ix2 ⟨1026, by decide⟩ j) := by
  rw [Fin.sum_univ_three]
  rfl

/-- THE LAW: the chunked accumulation is the matrix product, on all extended reals. -/
theorem warpK_eq_warpR (kps : Kps) (W : Wts) (pj px py : EReal) (j : Fin 2) :
    warpK kps W pj px py j = warpR kps W pj px py j := by
  unfold warpK warpR affine
  rw [accN_four, Fin.sum_univ_add (a := 1024) (b := 3), radial_sum, affine_sum, zero_add, one_mul,
    mul_comm px, mul_comm py]
  abel

end Cert.Warp

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.Payloads.lean ====
/-
  The kernel body's arithmetic, read at an index on the extended reals.

  Per trip of the chunk loop the body adds, into row 0 (row 1) of its accumulator, the column sums of a [256, 4096]
  array: entry `(r, q)` is the radial basis value of control point `r` of the chunk and query point `q` of the tile,
  times the chunk's weight `(r, 0)` (`(r, 1)`). After the loop it adds the query coordinate and the affine part.
  Each lemma reads one payload at an index `(·, q)` as the corresponding expression of `Cert.Warp`.
-/
import proofs.«167071_j17463337025574_2_alg».proof.Proof.Gen.KernelIdeal.Skeleton
import proofs.«167071_j17463337025574_2_alg».proof.Proof.Spec
import proofs.«167071_j17463337025574_2_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.Warp.Payloads

open Idealize.ShloMosaic Idealize.ShloMosaic.ValueIdx Cert.KernelIdeal Cert.KernelIdeal.Gen

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logarithm of a vector, at an index. -/
theorem log_apply {s : Shape} (x : FVec Ideal s .f32) (i : s.Idx) : log x i = Ideal.log (x i) := rfl

/-- Entry `(r, q)` of the chunk's radial array: the radial basis value of control point `r` and query point `q`. -/
theorem pay3_apply (v1 v3 : FVec Ideal S4096 .f32) (v55 v57 : Vec Ideal S256x1 .f32) (r : Fin 256) (q : Fin 4096) :
    k0_pay3 (F := Ideal) v1 v3 v55 v57 (ix2 r q)
      = rbf (v55 (ix2 r (0 : Fin 1))) (v57 (ix2 r (0 : Fin 1))) (v1 (ix1 q)) (v3 (ix1 q)) := by
  unfold k0_pay3 rbf guard
  simp only [mulf_apply, addf_apply, subf_apply, select_apply, cmpf_apply, broadcast_apply, log_apply,
    broadcastTo_a1_ab_apply, broadcastTo_1b_ab_apply, shapeCast_a_1a_apply, Ideal.cmpf_def,
    Ideal.ofBits_def, Ideal.ofBits_zero_f32]

/-- Row 0 of the accumulator after a trip, at column `q`: what it held plus the chunk's column sum against the weights'
    column-0 entries. -/
theorem pay4_apply (v1 v3 : FVec Ideal S4096 .f32) (v55 v57 v78 : Vec Ideal S256x1 .f32) (v81 : Vec Ideal S1x4096 .f32)
    (q : Fin 4096) :
    k0_pay4 (F := Ideal) v1 v3 v55 v57 v78 v81 (ix2 (0 : Fin 1) q)
      = v81 (ix2 (0 : Fin 1) q)
        + ∑ r : Fin 256, rbf (v55 (ix2 r (0 : Fin 1))) (v57 (ix2 r (0 : Fin 1))) (v1 (ix1 q)) (v3 (ix1 q)) * v78 (ix2 r (0 : Fin 1)) := by
  unfold k0_pay4
  simp only [shapeCast_a_1a_apply, addf_apply, shapeCast_1a_a_apply]
  refine congrArg (_ + ·) ((Cert.LibAxisSum.sum_first _ _ _ _ _ q).trans ?_)
  simp only [mulf_apply, pay3_apply, broadcastTo_a1_ab_apply]

/-- Row 1 of the accumulator after a trip, at column `q`: what it held plus the column sum of the chunk's radial
    array against the weights' column-1 entries. -/
theorem pay8_apply (v76 : FVec Ideal S256x4096 .f32) (v80 : Vec Ideal S256x1 .f32) (v90 : Vec Ideal S1x4096 .f32)
    (q : Fin 4096) :
    k0_pay8 (F := Ideal) v76 v80 v90 (ix2 (0 : Fin 1) q)
      = v90 (ix2 (0 : Fin 1) q) + ∑ r : Fin 256, v76 (ix2 r q) * v80 (ix2 r (0 : Fin 1)) := by
  unfold k0_pay8
  simp only [shapeCast_a_1a_apply, addf_apply, shapeCast_1a_a_apply]
  refine congrArg (_ + ·) ((Cert.LibAxisSum.sum_first _ _ _ _ _ q).trans ?_)
  simp only [mulf_apply, broadcastTo_a1_ab_apply]

/-- The zero fill of the accumulator. -/
theorem pay7_apply (y : S2x4096.Idx) : k0_pay7 (F := Ideal) y = 0 := by
  unfold k0_pay7
  rw [shapeCast_self]
  exact Ideal.ofBits_zero_f32

/-- One entry of the three affine rows of the weights, as the body picks it out of the `[3, 2]` vector it loads. -/
theorem pick (o0 o1 : ℕ) (h0 : o0 < 3) (h1 : o1 < 2) (v9 : Vec Ideal S3x2 .f32) (h : S3x2.Slices ![o0, o1] S1x1)
    (hp : ∀ a, (![0, 0] : Fin 2 → ℕ) a < S1x1.size a) :
    extractAt ![0, 0] (extractStridedSlice S1x1 ![o0, o1] v9 h) hp = v9 (ix2 (⟨o0, h0⟩ : Fin 3) (⟨o1, h1⟩ : Fin 2)) := by
  unfold extractAt
  refine extractStridedSlice_apply _ v9 h _ _ fun ax => ?_
  match ax with
  | ⟨0, _⟩ => rfl
  | ⟨1, _⟩ => rfl

/-- The affine part for column 1 at query point `q`. -/
theorem pay9_apply (v0 v2 : Vec Ideal S1x4096 .f32) (v9 : Vec Ideal S3x2 .f32) (q : Fin 4096) :
    k0_pay9 (F := Ideal) v0 v2 v9 (ix1 q)
      = (v9 (ix2 (0 : Fin 3) (1 : Fin 2)) + v9 (ix2 (1 : Fin 3) (1 : Fin 2)) * v0 (ix2 (0 : Fin 1) q))
        + v9 (ix2 (2 : Fin 3) (1 : Fin 2)) * v2 (ix2 (0 : Fin 1) q) := by
  unfold k0_pay9 k0_pay5 k0_pay6
  simp only [addf_apply, mulf_apply, broadcast_apply, shapeCast_1a_a_apply,
    pick 0 1 (by decide) (by decide), pick 1 1 (by decide) (by decide), pick 2 1 (by decide) (by decide)]
  rfl

/-- Row 0 of the output block at query point `q`: the x coordinate plus the accumulator's row 0 plus the affine part
    for column 0. -/
theorem pay10_apply (v0 v2 : Vec Ideal S1x4096 .f32) (v9 : Vec Ideal S3x2 .f32) (v36 : Vec Ideal S1x4096 .f32) (q : Fin 4096) :
    k0_pay10 (F := Ideal) v0 v2 v9 v36 (ix1 q)
      = (v0 (ix2 (0 : Fin 1) q) + v36 (ix2 (0 : Fin 1) q))
        + ((v9 (ix2 (0 : Fin 3) (0 : Fin 2)) + v9 (ix2 (1 : Fin 3) (0 : Fin 2)) * v0 (ix2 (0 : Fin 1) q))
          + v9 (ix2 (2 : Fin 3) (0 : Fin 2)) * v2 (ix2 (0 : Fin 1) q)) := by
  unfold k0_pay10 k0_pay5 k0_pay6
  simp only [addf_apply, mulf_apply, broadcast_apply, shapeCast_1a_a_apply,
    pick 0 0 (by decide) (by decide), pick 1 0 (by decide) (by decide), pick 2 0 (by decide) (by decide)]
  rfl

/-- Row 0 of the output block, stored through a `[1, 4096]` view. -/
theorem pay1_apply (v39 : FVec Ideal S4096 .f32) (q : Fin 4096) :
    k0_pay1 (F := Ideal) v39 (ix2 (0 : Fin 1) q) = v39 (ix1 q) := by
  unfold k0_pay1
  exact shapeCast_a_1a_apply _ _ _ _

/-- Row 1 of the output block at query point `q`: the y coordinate plus the accumulator's row 1 plus the affine part. -/
theorem pay2_apply (v3 v35 : FVec Ideal S4096 .f32) (v43 : Vec Ideal S1x4096 .f32) (q : Fin 4096) :
    k0_pay2 (F := Ideal) v3 v35 v43 (ix2 (0 : Fin 1) q) = (v3 (ix1 q) + v43 (ix2 (0 : Fin 1) q)) + v35 (ix1 q) := by
  unfold k0_pay2
  simp only [shapeCast_a_1a_apply, addf_apply, shapeCast_1a_a_apply]

/-- The y coordinates of the tile, as the body reshapes them. -/
theorem pay6_apply (v2 : Vec Ideal S1x4096 .f32) (q : Fin 4096) : k0_pay6 (F := Ideal) v2 (ix1 q) = v2 (ix2 (0 : Fin 1) q) := by
  unfold k0_pay6
  exact shapeCast_1a_a_apply _ _ _

/-- The x coordinates of the tile, as the body reshapes them. -/
theorem pay5_apply (v0 : Vec Ideal S1x4096 .f32) (q : Fin 4096) : k0_pay5 (F := Ideal) v0 (ix1 q) = v0 (ix2 (0 : Fin 1) q) := by
  unfold k0_pay5
  exact shapeCast_1a_a_apply _ _ _

end Cert.Warp.Payloads

end
-- ==== Proof.LibCanonUnit.lean ====
/-
  What a list of stores leaves, read one store at a time, newest first.

  The contents a list of unmasked stores leaves in a buffer depend on the pieces alone: at each index the payload of
  the newest piece whose rectangle holds the index. For a unit-stride rectangle at offsets `off` with extents `size`
  an index `y` lies in the rectangle exactly when `off a ≤ y a < off a + size a` on every axis, and its position
  inside is `y - off`. So under the newest piece the contents are that piece's payload at `y - off`, and off it (on
  some axis the coordinate misses the span) they are what the older pieces left.
-/
import Idealize.ShloMosaic.Lib.Pipeline.FrameBody

noncomputable section

namespace Cert.LibCanonUnit

open Idealize.ShloMosaic

variable {s : Shape} {e : EltTy} {Val : EltTy → Type} [∀ e, Nonempty (Val e)]

/-- An index at position `x` of the newest piece's unit-stride rectangle holds that piece's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` holds what the older pieces left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  show y ∉ (Rect.unit off size inb).set
  rw [Rect.mem_set_unit]
  intro hall
  have := hall a
  omega

/-- Where a load through a unit-stride rectangle reads: position `x` inside the rectangle is index `off + x`. -/
theorem unit_idx_eq {off size : Fin s.rank → ℕ} (inb : ∀ a, off a + size a ≤ s.size a)
    (x : (Rect.unit off size inb).shape.Idx) (y : s.Idx) (hx : ∀ a, (y a).val = off a + (x a).val) :
    (Rect.unit off size inb).toLoadRect.idx x = y :=
  funext fun a => Fin.ext (by
    show off a + 1 * (x a).val = (y a).val
    rw [hx a, Nat.one_mul])

end Cert.LibCanonUnit

end
-- ==== Proof.Accumulator.lean ====
/-
  The kernel's accumulator after `n` trips of its chunk loop, read at an index.

  The body zero-fills a `[2, 4096]` scratch, and each trip of the loop adds into row 0 (row 1) the chunk's column sums
  against the weights' column 0 (column 1). What the scratch holds is determined by the list of stores alone (newest
  first): the trips' two row stores in front of the zero fill. Reading that list at `(0, q)` and `(1, q)` after `n`
  trips gives the partial sums `Cert.Warp.accN … n` of the query point the tile holds in column `q`, by induction on
  `n`: a trip's row-0 store holds what row 0 held before plus chunk `n`'s sum, and leaves row 1 alone, and likewise
  for row 1.
-/
import proofs.«167071_j17463337025574_2_alg».proof.Proof.Gen.KernelIdeal.Frame
import proofs.«167071_j17463337025574_2_alg».proof.Proof.Payloads
import proofs.«167071_j17463337025574_2_alg».proof.Proof.LibCanonUnit
import Idealize.ShloMosaic.Lib.WholeRead

set_option maxRecDepth 16384

noncomputable section

namespace Cert.Warp.Accumulator

open Idealize.ShloMosaic Idealize.ShloMosaic.ValueIdx Idealize.ShloMosaic.TcCoe Idealize.SL Idealize.SL.Sem
open Cert.KernelIdeal Cert.KernelIdeal.Gen Cert.Warp Cert.Warp.Payloads Cert.LibCanonUnit

variable (c : Dev nD) (i : grid0.Coords) (arg1 : Memref sig .tc .vmem S2x4096 .f32) (harg1 : arg1.IsWhole) (arg2 : Memref sig .tc .vmem S1024x2 .f32) (harg2 : arg2.IsWhole) (arg3 : Memref sig .tc .vmem S1027x2 .f32) (harg3 : arg3.IsWhole) (arg4 : Memref sig .tc .vmem S2x4096 .f32) (harg4 : arg4.IsWhole) (arg5 : Memref sig .tc .vmem S2x4096 .f32) (harg5 : arg5.IsWhole)
    (x0 : Vec Ideal S2x4096 .f32) (x1 : Vec Ideal S1024x2 .f32) (x2 : Vec Ideal S1027x2 .f32)

/-- The tile's two rows as the body loads them: the x and the y coordinates of its 4096 query points. -/
abbrev rowX : Vec Ideal S1x4096 .f32 :=
  View.readAt (Elt Ideal) arg1.view (Rect.unit (s := S2x4096) ![0, 0] S1x4096.size inb_S2x4096_S1x4096_0_0).toLoadRect (harg1.unread x0)
abbrev rowY : Vec Ideal S1x4096 .f32 :=
  View.readAt (Elt Ideal) arg1.view (Rect.unit (s := S2x4096) ![1, 0] S1x4096.size inb_S2x4096_S1x4096_1_0).toLoadRect (harg1.unread x0)

/-- The stores the first `n` trips make into the accumulator, newest first. -/
abbrev pbL (n : ℕ) : List (View.Piece (Elt Ideal) S2x4096 .f32) :=
  pb_k0_t1 (F := Ideal) Variants.none c none i arg1 harg1 arg2 harg2 arg3 harg3 arg4 harg4 arg5 harg5
    (rowX arg1 harg1 x0) (rowY arg1 harg1 x0)
    (harg2.unread x1) (harg3.unread x2) (arg5.view.writes (Elt Ideal) arg5.view.junk kernelRun0_A.sl.HS0_1) n

/-- The loop makes four trips. -/
theorem trips_eq : k0_t1_loop.trips = 4 := by decide

theorem rowX_apply (q : Fin 4096) : rowX arg1 harg1 x0 (ix2 (0 : Fin 1) q) = x0 (ix2 (0 : Fin 2) q) :=
  (harg1.readAt_unread x0 _ _).trans (congrArg x0 (unit_idx_eq _ _ _ fun a => by
    match a with
    | ⟨0, _⟩ => rfl
    | ⟨1, _⟩ => exact (Nat.zero_add _).symm))

theorem rowY_apply (q : Fin 4096) : rowY arg1 harg1 x0 (ix2 (0 : Fin 1) q) = x0 (ix2 (1 : Fin 2) q) :=
  (harg1.readAt_unread x0 _ _).trans (congrArg x0 (unit_idx_eq _ _ _ fun a => by
    match a with
    | ⟨0, _⟩ => rfl
    | ⟨1, _⟩ => exact (Nat.zero_add _).symm))

/-- The zero fill alone: every entry is `0`. -/
theorem canon_fill (y : S2x4096.Idx) :
    View.canon (kernelRun0_A.sl.HS0_1 (F := Ideal)) y = 0 := by
  unfold kernelRun0_A.sl.HS0_1
  rw [View.canon_unit_zero (funext fun a => by fin_cases a <;> rfl)]
  exact pay7_apply y

/-- A load of the accumulator after `n` trips reads what the stores so far leave, at the load's index. -/
theorem read_acc (n : ℕ) (B : LoadRect S2x4096) (x : B.shape.Idx) :
    View.readAt (Elt Ideal) arg5.view B
        (arg5.view.writes (Elt Ideal) (arg5.view.writes (Elt Ideal) arg5.view.junk kernelRun0_A.sl.HS0_1)
          (pbL c i arg1 harg1 arg2 harg2 arg3 harg3 arg4 harg4 arg5 harg5 x0 x1 x2 n)) x
      = View.canon (pbL c i arg1 harg1 arg2 harg2 arg3 harg3 arg4 harg4 arg5 harg5 x0 x1 x2 n ++ kernelRun0_A.sl.HS0_1) (B.idx x) := by
  rw [← View.writes_append, View.readAt_writes_junk_eq_canon]

/-- Control point `r` of chunk `k`, coordinate `e`, as the trip loads it from the staged control points. -/
theorem kps_apply (k : Fin k0_t1_loop.trips) (o : ℕ) (ho : o < 2) (off : Fin 2 → ℕ) (hoff : off = ![256 * k.val, o])
    (inb : ∀ a, off a + S256x1.size a ≤ S1024x2.size a) (r : Fin 256) :
    View.readAt (Elt Ideal) arg2.view (Rect.unit (s := S1024x2) off S256x1.size inb).toLoadRect (harg2.unread x1) (ix2 r (0 : Fin 1))
      = x1 (ix2 (⟨256 * k.val + r.val, by have := Nat.lt_of_lt_of_le k.isLt trips_eq.le; omega⟩ : Fin 1024) (⟨o, ho⟩ : Fin 2)) := by
  subst hoff
  exact (harg2.readAt_unread x1 _ _).trans (congrArg x1 (unit_idx_eq _ _ _ fun a => by
    match a with
    | ⟨0, _⟩ => rfl
    | ⟨1, _⟩ => rfl))

/-- Weight `r` of chunk `k`, column `e`, as the trip loads it from the staged weights. -/
theorem wts_apply (k : Fin k0_t1_loop.trips) (o : ℕ) (ho : o < 2) (off : Fin 2 → ℕ) (hoff : off = ![256 * k.val, o])
    (inb : ∀ a, off a + S256x1.size a ≤ S1027x2.size a) (r : Fin 256) :
    View.readAt (Elt Ideal) arg3.view (Rect.unit (s := S1027x2) off S256x1.size inb).toLoadRect (harg3.unread x2) (ix2 r (0 : Fin 1))
      = x2 (ix2 (⟨256 * k.val + r.val, by have := Nat.lt_of_lt_of_le k.isLt trips_eq.le; omega⟩ : Fin 1027) (⟨o, ho⟩ : Fin 2)) := by
  subst hoff
  exact (harg3.readAt_unread x2 _ _).trans (congrArg x2 (unit_idx_eq _ _ _ fun a => by
    match a with
    | ⟨0, _⟩ => rfl
    | ⟨1, _⟩ => rfl))

/-- ROW 0 of the accumulator after `n` trips, at column `q`: the first `n` chunks' sums for output column 0. -/
theorem acc_row0 (q : Fin 4096) : ∀ n : ℕ,
    View.canon (pbL c i arg1 harg1 arg2 harg2 arg3 harg3 arg4 harg4 arg5 harg5 x0 x1 x2 n ++ kernelRun0_A.sl.HS0_1) (ix2 (0 : Fin 2) q)
      = accN x1 x2 (x0 (ix2 (0 : Fin 2) q)) (x0 (ix2 (1 : Fin 2) q)) 0 n
  | 0 => by
    show View.canon ([] ++ kernelRun0_A.sl.HS0_1) _ = 0
    rw [List.nil_append, canon_fill]
  | n + 1 => by
    have ih := acc_row0 q n
    unfold pbL at ih ⊢
    rw [pb_k0_t1.eq_2]
    unfold pb_k0_t1Step
    by_cases h : n < k0_t1_loop.trips
    · have h4 : n < 4 := trips_eq ▸ h
      rw [dif_pos h]
      unfold tripL_k0_t1
      unfold trip_k0_t1
      dsimp only
      simp only [List.cons_append, List.nil_append, List.append_assoc]
      rw [canon_cons_unit_of_not_mem _ _ _ (ix2 (0 : Fin 2) q) (0 : Fin 2) (Or.inl Nat.zero_lt_one),
        canon_cons_unit_of_mem (s := S2x4096) (off := ![0, 0]) (size := ![1, 4096]) inb_S2x4096_S1x4096_0_0 _ _ (ix2 (0 : Fin 2) q) (ix2 (0 : Fin 1) q) (fun a => by
          match a with
          | ⟨0, _⟩ => rfl
          | ⟨1, _⟩ => exact (Nat.zero_add _).symm),
        pay4_apply, read_acc]
      rw [show (Rect.unit (s := S2x4096) ![0, 0] ![1, 4096] inb_S2x4096_S1x4096_0_0).toLoadRect.idx (ix2 (0 : Fin 1) q) = ix2 (0 : Fin 2) q from
        unit_idx_eq _ _ _ fun a => by
          match a with
          | ⟨0, _⟩ => rfl
          | ⟨1, _⟩ => exact (Nat.zero_add _).symm]
      rw [ih]
      show _ = accN x1 x2 _ _ 0 (n + 1)
      rw [accN, dif_pos h4]
      refine congrArg (_ + ·) ?_
      unfold chunk term
      refine Finset.sum_congr rfl fun r _ => ?_
      rw [pay5_apply, pay6_apply, rowX_apply, rowY_apply,
        kps_apply arg2 harg2 x1 ⟨n, h⟩ 0 (by decide) _ (k0_off1_eq _),
        kps_apply arg2 harg2 x1 ⟨n, h⟩ 1 (by decide) _ (k0_off2_eq _),
        wts_apply arg3 harg3 x2 ⟨n, h⟩ 0 (by decide) _ (k0_off3_eq _)]
      rfl
    · have h4 : ¬ n < 4 := trips_eq ▸ h
      rw [dif_neg h, ih]
      show _ = accN x1 x2 _ _ 0 (n + 1)
      rw [accN, dif_neg h4]

/-- ROW 1 of the accumulator after `n` trips, at column `q`: the first `n` chunks' sums for output column 1. -/
theorem acc_row1 (q : Fin 4096) : ∀ n : ℕ,
    View.canon (pbL c i arg1 harg1 arg2 harg2 arg3 harg3 arg4 harg4 arg5 harg5 x0 x1 x2 n ++ kernelRun0_A.sl.HS0_1) (ix2 (1 : Fin 2) q)
      = accN x1 x2 (x0 (ix2 (0 : Fin 2) q)) (x0 (ix2 (1 : Fin 2) q)) 1 n
  | 0 => by
    show View.canon ([] ++ kernelRun0_A.sl.HS0_1) _ = 0
    rw [List.nil_append, canon_fill]
  | n + 1 => by
    have ih := acc_row1 q n
    unfold pbL at ih ⊢
    rw [pb_k0_t1.eq_2]
    unfold pb_k0_t1Step
    by_cases h : n < k0_t1_loop.trips
    · have h4 : n < 4 := trips_eq ▸ h
      rw [dif_pos h]
      unfold tripL_k0_t1
      unfold trip_k0_t1
      dsimp only
      simp only [List.cons_append, List.nil_append, List.append_assoc]
      rw [canon_cons_unit_of_mem (s := S2x4096) (off := ![1, 0]) (size := ![1, 4096]) inb_S2x4096_S1x4096_1_0 _ _ (ix2 (1 : Fin 2) q) (ix2 (0 : Fin 1) q) (fun a => by
          match a with
          | ⟨0, _⟩ => rfl
          | ⟨1, _⟩ => exact (Nat.zero_add _).symm),
        pay8_apply]
      unfold trip_k0_t1.sl.v90 trip_k0_t1.sl.r trip_k0_t1.sl.r_1
      rw [read_acc]
      rw [show (Rect.unit (s := S2x4096) ![1, 0] S1x4096.size inb_S2x4096_S1x4096_1_0).toLoadRect.idx (ix2 (0 : Fin 1) q) = ix2 (1 : Fin 2) q from
        unit_idx_eq _ _ _ fun a => by
          match a with
          | ⟨0, _⟩ => rfl
          | ⟨1, _⟩ => exact (Nat.zero_add _).symm]
      rw [ih]
      show _ = accN x1 x2 _ _ 1 (n + 1)
      rw [accN, dif_pos h4]
      refine congrArg (_ + ·) ?_
      unfold chunk term
      refine Finset.sum_congr rfl fun r _ => ?_
      rw [pay3_apply, pay5_apply, pay6_apply, rowX_apply, rowY_apply,
        kps_apply arg2 harg2 x1 ⟨n, h⟩ 0 (by decide) _ (k0_off1_eq _),
        kps_apply arg2 harg2 x1 ⟨n, h⟩ 1 (by decide) _ (k0_off2_eq _),
        wts_apply arg3 harg3 x2 ⟨n, h⟩ 1 (by decide) _ (k0_off4_eq _)]
      rfl
    · have h4 : ¬ n < 4 := trips_eq ▸ h
      rw [dif_neg h, ih]
      show _ = accN x1 x2 _ _ 1 (n + 1)
      rw [accN, dif_neg h4]

end Cert.Warp.Accumulator

end
-- ==== Proof.Block.lean ====
/-
  What the kernel body leaves in its output block, read at an index.

  The body's two stores fill the `[2, 4096]` output block row by row. Row 0 at column `q` is the x coordinate of the
  tile's query point `q` plus row 0 of the accumulator after all four trips plus the affine part for output column 0;
  row 1 is the same with the y coordinate, row 1 of the accumulator and output column 1. With the accumulator's rows
  read as partial sums (`Cert.Warp.Accumulator`) both are the chunked arrangement `Cert.Warp.warpK` of the warp.
-/
import proofs.«167071_j17463337025574_2_alg».proof.Proof.Accumulator

set_option maxRecDepth 16384

noncomputable section

namespace Cert.Warp.Block

open Idealize.ShloMosaic Idealize.ShloMosaic.ValueIdx Idealize.ShloMosaic.TcCoe Idealize.SL Idealize.SL.Sem
open Cert.KernelIdeal Cert.KernelIdeal.Gen Cert.Warp Cert.Warp.Payloads Cert.LibCanonUnit Cert.Warp.Accumulator

variable (c : Dev nD) (i : grid0.Coords) (arg1 : Memref sig .tc .vmem S2x4096 .f32) (harg1 : arg1.IsWhole) (arg2 : Memref sig .tc .vmem S1024x2 .f32) (harg2 : arg2.IsWhole) (arg3 : Memref sig .tc .vmem S1027x2 .f32) (harg3 : arg3.IsWhole) (arg4 : Memref sig .tc .vmem S2x4096 .f32) (harg4 : arg4.IsWhole) (arg5 : Memref sig .tc .vmem S2x4096 .f32) (harg5 : arg5.IsWhole)
    (x0 : Vec Ideal S2x4096 .f32) (x1 : Vec Ideal S1024x2 .f32) (x2 : Vec Ideal S1027x2 .f32)

/-- Entry `(a, b)` of the three affine rows of the weights, as the body loads them from the staged weights. -/
theorem aff_apply (a : Fin 3) (b : Fin 2) :
    View.readAt (Elt Ideal) arg3.view (Rect.unit (s := S1027x2) ![1024, 0] S3x2.size inb_S1027x2_S3x2_1024_0).toLoadRect (harg3.unread x2) (ix2 a b)
      = x2 (ix2 (⟨1024 + a.val, by omega⟩ : Fin 1027) b) :=
  (harg3.readAt_unread x2 _ _).trans (congrArg x2 (unit_idx_eq _ _ _ fun ax => by
    match ax with
    | ⟨0, _⟩ => rfl
    | ⟨1, _⟩ => exact (Nat.zero_add _).symm))

/-- The trip count as the run spells it. -/
theorem trips_eq' : Scf.trips k0_t1_loop.lb k0_t1_loop.ub k0_t1_loop.st = 4 := trips_eq

/-- ROW 0 of the output block at column `q`. -/
theorem block_row0 (q : Fin 4096) :
    out0_A_3 (F := Ideal) c i arg1 harg1 arg2 harg2 arg3 harg3 arg4 harg4 arg5 harg5 x0 x1 x2 (ix2 (0 : Fin 2) q)
      = warpK x1 x2 (x0 (ix2 (0 : Fin 2) q)) (x0 (ix2 (0 : Fin 2) q)) (x0 (ix2 (1 : Fin 2) q)) 0 := by
  have eX := rowX_apply arg1 harg1 x0 q
  have eY := rowY_apply arg1 harg1 x0 q
  unfold rowX at eX
  unfold rowY at eY
  unfold out0_A_3
  rw [View.read_writes_junk_eq_canon]
  unfold kernelRun0_A
  dsimp only
  rw [canon_cons_unit_of_not_mem _ _ _ (ix2 (0 : Fin 2) q) (0 : Fin 2) (Or.inl Nat.zero_lt_one),
    canon_cons_unit_of_mem (s := S2x4096) (off := ![0, 0]) (size := ![1, 4096]) inb_S2x4096_S1x4096_0_0 _ _ (ix2 (0 : Fin 2) q) (ix2 (0 : Fin 1) q) (fun a => by
      match a with
      | ⟨0, _⟩ => rfl
      | ⟨1, _⟩ => exact (Nat.zero_add _).symm),
    pay1_apply]
  unfold kernelRun0_A.sl.r_2
  rw [pay10_apply]
  unfold kernelRun0_A.sl.v36
  rw [View.readAt_writes_junk_eq_canon, trips_eq']
  beta_reduce
  rw [show (Rect.unit (s := S2x4096) ![0, 0] S1x4096.size inb_S2x4096_S1x4096_0_0).toLoadRect.idx (ix2 (0 : Fin 1) q) = ix2 (0 : Fin 2) q from
    unit_idx_eq _ _ _ fun a => by
      match a with
      | ⟨0, _⟩ => rfl
      | ⟨1, _⟩ => exact (Nat.zero_add _).symm]
  rw [acc_row0 c i arg1 harg1 arg2 harg2 arg3 harg3 arg4 harg4 arg5 harg5 x0 x1 x2 q 4, eX, eY,
    aff_apply, aff_apply, aff_apply]
  rfl

/-- ROW 1 of the output block at column `q`. -/
theorem block_row1 (q : Fin 4096) :
    out0_A_3 (F := Ideal) c i arg1 harg1 arg2 harg2 arg3 harg3 arg4 harg4 arg5 harg5 x0 x1 x2 (ix2 (1 : Fin 2) q)
      = warpK x1 x2 (x0 (ix2 (1 : Fin 2) q)) (x0 (ix2 (0 : Fin 2) q)) (x0 (ix2 (1 : Fin 2) q)) 1 := by
  have eX := rowX_apply arg1 harg1 x0 q
  have eY := rowY_apply arg1 harg1 x0 q
  unfold rowX at eX
  unfold rowY at eY
  unfold out0_A_3
  rw [View.read_writes_junk_eq_canon]
  unfold kernelRun0_A
  dsimp only
  rw [canon_cons_unit_of_mem (s := S2x4096) (off := ![1, 0]) (size := ![1, 4096]) inb_S2x4096_S1x4096_1_0 _ _ (ix2 (1 : Fin 2) q) (ix2 (0 : Fin 1) q) (fun a => by
      match a with
      | ⟨0, _⟩ => rfl
      | ⟨1, _⟩ => exact (Nat.zero_add _).symm),
    pay2_apply]
  unfold kernelRun0_A.sl.r kernelRun0_A.sl.r_1 kernelRun0_A.sl.v43
  rw [pay6_apply, pay9_apply, View.readAt_writes_junk_eq_canon, trips_eq']
  beta_reduce
  rw [show (Rect.unit (s := S2x4096) ![1, 0] ![1, 4096] inb_S2x4096_S1x4096_1_0).toLoadRect.idx (ix2 (0 : Fin 1) q) = ix2 (1 : Fin 2) q from
    unit_idx_eq _ _ _ fun a => by
      match a with
      | ⟨0, _⟩ => rfl
      | ⟨1, _⟩ => exact (Nat.zero_add _).symm]
  rw [acc_row1 c i arg1 harg1 arg2 harg2 arg3 harg3 arg4 harg4 arg5 harg5 x0 x1 x2 q 4, eX, eY,
    aff_apply, aff_apply, aff_apply]
  rfl

/-- THE OUTPUT BLOCK at any index `y = (j, q)`: the chunked warp of the tile's query point `q`, output column `j`. -/
theorem block_apply (y : S2x4096.Idx) :
    out0_A_3 (F := Ideal) c i arg1 harg1 arg2 harg2 arg3 harg3 arg4 harg4 arg5 harg5 x0 x1 x2 y
      = warpK x1 x2 (x0 y) (x0 (ix2 (0 : Fin 2) (y 1))) (x0 (ix2 (1 : Fin 2) (y 1))) (y 0) := by
  obtain ⟨j, q, rfl⟩ : ∃ (j : Fin 2) (q : Fin 4096), y = ix2 j q := ⟨y 0, y 1, eq_ix2 y⟩
  match j with
  | ⟨0, _⟩ => exact block_row0 c i arg1 harg1 arg2 harg2 arg3 harg3 arg4 harg4 arg5 harg5 x0 x1 x2 q
  | ⟨1, _⟩ => exact block_row1 c i arg1 harg1 arg2 harg2 arg3 harg3 arg4 harg4 arg5 harg5 x0 x1 x2 q

end Cert.Warp.Block

end
-- ==== Proof.Tiles.lean ====
/-
  From the output blocks to the output array of the region.

  The region's output array is `[2, 122880]`: thirty tiles of 4096 query points, point `t` of the grid writing back
  columns `[4096 t, 4096 t + 4096)`. Its input window over the transposed, padded query points moves with the output
  window (same block index at every point), and the control points and weights are staged whole. So what point `t`
  writes back is block `t` of ONE function of the arrays the region finds: at `(j, n)` the chunked warp of query
  point `n`, output column `j`. The thirty blocks cover the array (column `n` is in block `n / 4096`), so the array
  ends holding that function.
-/
import proofs.«167071_j17463337025574_2_alg».proof.Proof.Block
import Idealize.ShloMosaic.Lib.Pipeline.Value

set_option maxRecDepth 16384

noncomputable section

namespace Cert.Warp.Tiles

open Idealize.ShloMosaic Idealize.ShloMosaic.ValueIdx Idealize.ShloMosaic.TcCoe Idealize.SL Idealize.SL.Sem
open Idealize.ShloMosaic.Pipeline (Dat Cfg Window)
open Cert.KernelIdeal Cert.KernelIdeal.Gen Cert.Warp Cert.Warp.Block

variable (m : (ℓ : Loc nD τ sig) → Buf (Elt Ideal) ℓ)

/-- The region's output as one function of the transposed query points `xt : [2, 122880]`, the control points and the
    weights: at `(j, n)` the chunked warp of query point `n = (xt (0, n), xt (1, n))`, output column `j`. -/
def warped (xt : S2x122880.Idx → EReal) (x1 : Kps) (x2 : Wts) : S2x122880.Idx → EReal :=
  fun y => warpK x1 x2 (xt y) (xt (ix2 (0 : Fin 2) (y 1))) (xt (ix2 (1 : Fin 2) (y 1))) (y 0)

/-- The printed index maps over the grid: the tile windows sit at block `(0, t)`, the resident windows at `(0, 0)`. -/
theorem idx_facts : ∀ t : Fin cfg0.N, win0_0.index t (0 : Fin 2) = 0 ∧ win0_0.index t (1 : Fin 2) = t.val
    ∧ win0_3.index t (0 : Fin 2) = 0 ∧ win0_3.index t (1 : Fin 2) = t.val
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The staged control points are the whole array. -/
theorem iblk1_eq (c : Dev nD) (t : Fin cfg0.N) : (iblk m c 1 t : S1024x2.Idx → EReal) = V m c main_arg1 := by
  obtain ⟨-, -, -, -, e0, e1, -, -⟩ := idx_facts t
  funext z
  show V m c main_arg1 (((cfg0.win 1).blk t).view.emb z) = V m c main_arg1 z
  refine congrArg _ (funext fun a => Fin.ext ?_)
  match a with
  | ⟨0, _⟩ => show win0_1.index t (0 : Fin 2) * 1024 + 1 * (z 0).val = (z 0).val; omega
  | ⟨1, _⟩ => show win0_1.index t (1 : Fin 2) * 2 + 1 * (z 1).val = (z 1).val; omega

/-- The staged weights are the whole array. -/
theorem iblk2_eq (c : Dev nD) (t : Fin cfg0.N) : (iblk m c 2 t : S1027x2.Idx → EReal) = V m c main_arg2 := by
  obtain ⟨-, -, -, -, -, -, e0, e1⟩ := idx_facts t
  funext z
  show V m c main_arg2 (((cfg0.win 2).blk t).view.emb z) = V m c main_arg2 z
  refine congrArg _ (funext fun a => Fin.ext ?_)
  match a with
  | ⟨0, _⟩ => show win0_2.index t (0 : Fin 2) * 1027 + 1 * (z 0).val = (z 0).val; omega
  | ⟨1, _⟩ => show win0_2.index t (1 : Fin 2) * 2 + 1 * (z 1).val = (z 1).val; omega

/-- The staged tile at `(j, q)` is the transposed query points at `(j, 4096 t + q)`. -/
theorem iblk0_apply (c : Dev nD) (t : Fin cfg0.N) (j : Fin 2) (q : Fin 4096) (n : Fin 122880) (hn : n.val = t.val * 4096 + q.val) :
    (iblk m c 0 t : S2x4096.Idx → EReal) (ix2 j q) = V m c main_v1 (ix2 j n) := by
  obtain ⟨e0, e1, -, -, -, -, -, -⟩ := idx_facts t
  show V m c main_v1 (((cfg0.win 0).blk t).view.emb (ix2 j q)) = V m c main_v1 (ix2 j n)
  refine congrArg _ (funext fun a => Fin.ext ?_)
  match a with
  | ⟨0, _⟩ => show win0_0.index t (0 : Fin 2) * 2 + 1 * j.val = j.val; omega
  | ⟨1, _⟩ => show win0_0.index t (1 : Fin 2) * 4096 + 1 * q.val = n.val; omega

/-- WHAT POINT `t` WRITES BACK is block `t` of `warped` of the arrays as the region finds them. -/
theorem flushed_eq (c : Dev nD) (t : Fin cfg0.N) :
    (dats m 0 c).flushed 3 t
      = ((cfg0.win 3).blk t).view.read (Elt Ideal) (warped (V m c main_v1) (V m c main_arg1) (V m c main_arg2)) := by
  show (cfg0.win 3).cut (grid0.coords t) ((dats m 0 c).after 3 t) = _
  rw [after0_3]
  unfold outsAt0
  obtain ⟨-, -, e0, e1, -, -, -, -⟩ := idx_facts t
  funext y
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) y
    = warped (V m c main_v1) (V m c main_arg1) (V m c main_arg2) (((cfg0.win 3).blk t).view.emb y)
  rw [block_apply c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) y,
    iblk1_eq, iblk2_eq]
  obtain ⟨j, q, rfl⟩ : ∃ (j : Fin 2) (q : Fin 4096), y = ix2 j q := ⟨y 0, y 1, eq_ix2 y⟩
  have hq : q.val < 4096 := q.isLt
  have ht : t.val < 30 := N_0 ▸ t.isLt
  have hemb : ((cfg0.win 3).blk t).view.emb (ix2 j q) = ix2 j (⟨t.val * 4096 + q.val, by omega⟩ : Fin 122880) := by
    funext a; apply Fin.ext
    match a with
    | ⟨0, _⟩ => show win0_3.index t (0 : Fin 2) * 2 + 1 * j.val = j.val; omega
    | ⟨1, _⟩ => show win0_3.index t (1 : Fin 2) * 4096 + 1 * q.val = t.val * 4096 + q.val; omega
  rw [hemb]
  unfold warped
  rw [iblk0_apply m c t j q ⟨t.val * 4096 + q.val, by omega⟩ rfl,
    iblk0_apply m c t 0 q ⟨t.val * 4096 + q.val, by omega⟩ rfl,
    iblk0_apply m c t 1 q ⟨t.val * 4096 + q.val, by omega⟩ rfl]

/-- An index of the array is in point `t`'s block iff each coordinate is in the block's range on its axis. -/
theorem mem_blk (t : Fin cfg0.N) (i : S2x122880.Idx) :
    i ∈ ((cfg0.win 3).blk t).view.set ↔ ∀ a : Fin 2, win0_3.index t a * S2x4096.size a ≤ (i a).val ∧ (i a).val < win0_3.index t a * S2x4096.size a + S2x4096.size a := by
  show i ∈ ((View.whole main_v2).slice (win0_3.rect t)).set ↔ _
  rw [View.set_slice_whole, Rect.mem_set_unit]
  exact Iff.rfl

/-- Every index of the array is in some point's block: column `n` in block `n / 4096`. -/
theorem cover (i : S2x122880.Idx) : ∃ t : Fin cfg0.N, (cfg0.win 3).flush t = true ∧ i ∈ ((cfg0.win 3).blk t).view.set := by
  have hi0 : (i 0).val < 2 := (i 0).isLt
  have hi1 : (i 1).val < 122880 := (i 1).isLt
  let t : Fin cfg0.N := ⟨(i 1).val / 4096, by rw [show cfg0.N = 30 from N_0]; omega⟩
  obtain ⟨-, -, e0, e1, -, -, -, -⟩ := idx_facts t
  refine ⟨t, flush0_3 t, ?_⟩
  rw [mem_blk]
  have e1' : win0_3.index t (1 : Fin 2) = (i 1).val / 4096 := e1
  intro a
  match a with
  | ⟨0, _⟩ => show win0_3.index t (0 : Fin 2) * 2 ≤ (i 0).val ∧ (i 0).val < win0_3.index t (0 : Fin 2) * 2 + 2; omega
  | ⟨1, _⟩ => show win0_3.index t (1 : Fin 2) * 4096 ≤ (i 1).val ∧ (i 1).val < win0_3.index t (1 : Fin 2) * 4096 + 4096; omega

/-- THE ARRAY after the region: `warped` of the arrays as the region finds them. -/
theorem final (c : Dev nD) :
    (dats m 0 c).arrAt 3 cfg0.N = warped (V m c main_v1) (V m c main_arg1) (V m c main_arg2) :=
  (dats m 0 c).arrAt_eq_of_cover 3 _ (fun t _ => flushed_eq m c t) cover

end Cert.Warp.Tiles

end
-- ==== Proof.HostSide.lean ====
/-
  The host operations around the region, and the kernel program's result.

  Before the region the host pads the query points `[120000, 2]` with 2880 zero rows and transposes them to
  `[2, 122880]`: entry `(j, n)` of what the region finds is entry `(n, j)` of the query points for `n < 120000`. After the
  region it transposes the region's `[2, 122880]` output back and keeps rows `[0, 120000)`: entry `(p, j)` of the result
  is entry `(j, p)` of the region's output. The padded columns are computed and dropped. With the region's output read
  as `Cert.Warp.Tiles.warped`, the result at `(p, j)` is the chunked warp of query point `p`, output column `j`, which
  is the matrix-product arrangement `Cert.Warp.warpAll` by the law `warpK_eq_warpR`.
-/
import proofs.«167071_j17463337025574_2_alg».proof.Proof.Tiles
import Idealize.ShloMosaic.Lib.KernelVsHost
import Idealize.ShloMosaic.Lib.ValueLayout
import Idealize.ShloMosaic.Lib.StableHlo.Run

set_option maxRecDepth 16384

noncomputable section

namespace Cert.Warp.HostSide

open Idealize.ShloMosaic Idealize.ShloMosaic.ValueIdx Idealize.ShloMosaic.TcCoe Idealize.SL Idealize.SL.Sem
open Idealize.ShloMosaic.Pipeline (Dat Cfg Window)
open Cert.KernelIdeal Cert.KernelIdeal.Gen Cert.Warp Cert.Warp.Tiles

variable (m : (ℓ : Loc nD τ sig) → Buf (Elt Ideal) ℓ)

/-- What the region finds in its first operand: the query points padded and transposed. -/
theorem v1_eq (c : Dev nD) :
    (V m c main_v1 : S2x122880.Idx → EReal)
      = transpose S2x122880 [1, 0] (pad S122880x2 ![0, 0] ![2880, 0] ![0, 0] (m ((c : Thread nD τ).loc main_arg0)) (sitofp .f32 (constantI S_ 32 0#32) : FVec Ideal S_ .f32) pads_S120000x2_S122880x2_028800_000 h_S_) transposes_S122880x2_S2x122880_1_0 := by
  dsimp only [Gen.V, Gen.V0]
  simp only [hostOps0, hostOps0_1, hostOps0_2, List.flatten_cons, List.flatten_nil, List.append_nil, List.cons_append, List.nil_append]
  after_results
  rfl

/-- At `(j, n)` with `n` an unpadded column `p`, it is the query points at `(p, j)`. -/
theorem v1_apply (c : Dev nD) (j : Fin 2) (n : Fin 122880) (p : Fin 120000) (hn : n.val = p.val) :
    (V m c main_v1 : S2x122880.Idx → EReal) (ix2 j n) = m ((c : Thread nD τ).loc main_arg0) (ix2 p j) := by
  rw [v1_eq, transpose_ix2_apply]
  refine pad_apply_of_inside _ _ _ _ _ _ _ (ix2 n j) (ix2 p j) fun a => ?_
  match a with
  | ⟨0, _⟩ => show n.val = 0 + p.val * (0 + 1); omega
  | ⟨1, _⟩ => show j.val = 0 + j.val * (0 + 1); omega

/-- The program's result buffer after the host tail: the region's output transposed back, its first 120000 rows. -/
theorem tail_eq (c : Dev nD) : Pipeline.afterTail₀ cfgs (dats m) 0 (V0 m) [hostOps1] c main_v4
    = extractStridedSlice S120000x2 ![0, 0] (transpose S122880x2 [1, 0] (warped (V m c main_v1) (V m c main_arg1) (V m c main_arg2)) transposes_S2x122880_S122880x2_1_0) slices_S122880x2_S120000x2_0_0 := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v2) = _ from
    (Pipeline.withArrays_arr spec0 launch0.win.arr_inj c _ _ 3).trans (final m c)]

/-- THE KERNEL PROGRAM'S RESULT is the warped points, as a function of its three argument arrays. -/
theorem result_eq (c : Dev nD) : Pipeline.afterTail₀ cfgs (dats m) 0 (V0 m) [hostOps1] c main_v4
    = warpAll (m ((c : Thread nD τ).loc main_arg0)) (m ((c : Thread nD τ).loc main_arg1)) (m ((c : Thread nD τ).loc main_arg2)) := by
  rw [tail_eq]
  funext i
  obtain ⟨p, j, rfl⟩ : ∃ (p : Fin 120000) (j : Fin 2), i = ix2 p j := ⟨i 0, i 1, eq_ix2 i⟩
  have hp : p.val < 120000 := p.isLt
  rw [slice2_axis0_apply 0 _ slices_S122880x2_S120000x2_0_0 p j (⟨p.val, by omega⟩ : Fin 122880) (Nat.zero_add _).symm,
    transpose_ix2_apply]
  unfold warped warpAll
  rw [← warpK_eq_warpR, V_main_arg1, V_main_arg2]
  show warpK _ _ ((V m c main_v1 : S2x122880.Idx → EReal) (ix2 j ⟨p.val, _⟩)) ((V m c main_v1 : S2x122880.Idx → EReal) (ix2 0 ⟨p.val, _⟩))
    ((V m c main_v1 : S2x122880.Idx → EReal) (ix2 1 ⟨p.val, _⟩)) j = _
  rw [v1_apply m c j _ p rfl, v1_apply m c 0 _ p rfl, v1_apply m c 1 _ p rfl]

/-- THE KERNEL PROGRAM'S RUN: every weakly fair execution terminates with the result buffer at the warped points and
    the three argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v4)
          = warpAll (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Warp.HostSide

end
-- ==== Proof.RefSide.lean ====
/-
  The reference program's result, read at an index.

  The reference builds the `[1027, 120000]` design matrix — rows `k < 1024` the radial basis values of control point
  `k` against every query point, then a row of ones, the row of x coordinates and the row of y coordinates —,
  transposes it, multiplies it by the weights `[1027, 2]` and adds the query points. Entry `(p, j)` of the result is
  therefore `pts (p, j) + ∑_{k < 1027} design k · W (k, j)`: the matrix-product arrangement `Cert.Warp.warpAll`.
  The squared distance is the host's sum over the coordinate axis from the initial value `0`, which is `0 + (dx² + dy²)`.
-/
import proofs.«167071_j17463337025574_2_alg».proof.Proof.Gen.ReferenceIdeal.Read
import proofs.«167071_j17463337025574_2_alg».proof.Proof.Spec

noncomputable section

namespace Cert.Warp.RefSide

open Idealize.ShloMosaic Idealize.ShloMosaic.ValueIdx
open Cert.ReferenceIdeal Cert.ReferenceIdeal.Gen Cert.ReferenceIdeal.Read Cert.Warp

variable (x0 : (⟨S120000x2, .f32⟩ : BufTy).Contents (Elt Ideal)) (x1 : (⟨S1024x2, .f32⟩ : BufTy).Contents (Elt Ideal)) (x2 : (⟨S1027x2, .f32⟩ : BufTy).Contents (Elt Ideal))

/-- The f32 word of `1.0` is the extended real `1`. -/
theorem one_word : Ideal.ofBits .f32 0x3F800000#32 = 1 := by
  simp [Ideal.ofBits, Ideal.ieee, -EReal.coe_mul]
  norm_num

/-- Row `k < 1024` of the design matrix at query point `p`: the radial basis value. -/
theorem rbf_apply (k : Fin 1024) (p : Fin 120000) :
    val_main_v13 (F := Ideal) x0 x1 (ix2 k p) = rbf (x1 (ix2 k 0)) (x1 (ix2 k 1)) (x0 (ix2 p 0)) (x0 (ix2 p 1)) := by
  rw [val_main_v13_apply, val_main_v11_apply, val_main_v12_apply, val_main_v10_apply, val_main_cst_2_apply, val_main_v9_apply,
    val_main_v8_apply, val_main_call0_v1_apply, val_main_call0_v0_apply, val_main_v7_apply, val_main_cst_0_apply,
    val_main_v6_apply, val_main_cst_apply]
  simp only [Fin.sum_univ_two, val_main_v5_apply, val_main_v4_apply, val_main_v2_apply, val_main_v0_apply, val_main_v3_apply, val_main_v1_apply,
    val_main_cst_1_apply]
  have e1 : ∀ c : Fin 2, idx_main_v0 (idx_main_v2 (idx_main_v6 (ix2 k p) c)) = ix2 k c := fun c =>
    funext fun a => Fin.ext (by match a with | ⟨0, _⟩ => rfl | ⟨1, _⟩ => rfl)
  have e2 : ∀ c : Fin 2, idx_main_v1 (idx_main_v3 (idx_main_v6 (ix2 k p) c)) = ix2 p c := fun c =>
    funext fun a => Fin.ext (by match a with | ⟨0, _⟩ => rfl | ⟨1, _⟩ => rfl)
  unfold rbf guard
  simp only [e1, e2, Ideal.mulf_def, Ideal.subf_def, Ideal.cmpf_def, Ideal.hostUnary_log_def, Ideal.ofBits_def,
    Ideal.ofBits_zero_f32, zero_add]

/-- The row of ones. -/
theorem ones_apply (p : Fin 120000) : val_main_v21 (F := Ideal) (ix2 (0 : Fin 1) p) = 1 := by
  rw [val_main_v21_apply, val_main_v16_apply, val_main_cst_3_apply]
  exact one_word

/-- The row of x coordinates. -/
theorem xs_apply (p : Fin 120000) : val_main_v22 (F := Ideal) x0 (ix2 (0 : Fin 1) p) = x0 (ix2 p (0 : Fin 2)) := by
  rw [val_main_v22_apply, val_main_v18_apply, val_main_v17_apply]
  exact congrArg x0 (funext fun a => Fin.ext (by
    match a with
    | ⟨0, _⟩ => show p.val / 1 = p.val; exact Nat.div_one _
    | ⟨1, _⟩ => rfl))

/-- The row of y coordinates. -/
theorem ys_apply (p : Fin 120000) : val_main_v23 (F := Ideal) x0 (ix2 (0 : Fin 1) p) = x0 (ix2 p (1 : Fin 2)) := by
  rw [val_main_v23_apply, val_main_v20_apply, val_main_v19_apply]
  exact congrArg x0 (funext fun a => Fin.ext (by
    match a with
    | ⟨0, _⟩ => show p.val / 1 = p.val; exact Nat.div_one _
    | ⟨1, _⟩ => rfl))

/-- The three affine rows stacked: row `a` at query point `p`. -/
theorem aff_apply (a : Fin 3) (p : Fin 120000) :
    val_main_v24 (F := Ideal) x0 (ix2 a p)
      = if a.val = 0 then 1 else if a.val = 1 then x0 (ix2 p (0 : Fin 2)) else x0 (ix2 p (1 : Fin 2)) := by
  unfold val_main_v24
  match a with
  | ⟨0, _⟩ =>
    rw [if_pos rfl]
    refine (concatenate_apply_piece (0 : Fin S3x120000.rank) [⟨S1x120000, (val_main_v21 (F := Ideal))⟩, ⟨S1x120000, (val_main_v22 (F := Ideal) x0)⟩, ⟨S1x120000, (val_main_v23 (F := Ideal) x0)⟩] concatenates_S1x120000_S1x120000_S1x120000_S3x120000_d0 (ix2 (0 : Fin 3) p)
      0 (by simp) S1x120000 (val_main_v21 (F := Ideal)) rfl rfl 0 rfl (ix2 (0 : Fin 1) p) (fun b hb => ?_) rfl).trans (ones_apply p)
    match b with
    | ⟨0, _⟩ => exact absurd rfl hb
    | ⟨1, _⟩ => rfl
  | ⟨1, _⟩ =>
    rw [if_neg (by simp), if_pos rfl]
    refine (concatenate_apply_piece (0 : Fin S3x120000.rank) [⟨S1x120000, (val_main_v21 (F := Ideal))⟩, ⟨S1x120000, (val_main_v22 (F := Ideal) x0)⟩, ⟨S1x120000, (val_main_v23 (F := Ideal) x0)⟩] concatenates_S1x120000_S1x120000_S1x120000_S3x120000_d0 (ix2 (1 : Fin 3) p)
      1 (by simp) S1x120000 (val_main_v22 (F := Ideal) x0) rfl rfl 1 rfl (ix2 (0 : Fin 1) p) (fun b hb => ?_) rfl).trans (xs_apply x0 p)
    match b with
    | ⟨0, _⟩ => exact absurd rfl hb
    | ⟨1, _⟩ => rfl
  | ⟨2, _⟩ =>
    rw [if_neg (by simp), if_neg (by simp)]
    refine (concatenate_apply_piece (0 : Fin S3x120000.rank) [⟨S1x120000, (val_main_v21 (F := Ideal))⟩, ⟨S1x120000, (val_main_v22 (F := Ideal) x0)⟩, ⟨S1x120000, (val_main_v23 (F := Ideal) x0)⟩] concatenates_S1x120000_S1x120000_S1x120000_S3x120000_d0 (ix2 (2 : Fin 3) p)
      2 (by simp) S1x120000 (val_main_v23 (F := Ideal) x0) rfl rfl 2 rfl (ix2 (0 : Fin 1) p) (fun b hb => ?_) rfl).trans (ys_apply x0 p)
    match b with
    | ⟨0, _⟩ => exact absurd rfl hb
    | ⟨1, _⟩ => rfl

/-- ROW `k` OF THE DESIGN MATRIX at query point `p`. -/
theorem design_apply (k : Fin 1027) (p : Fin 120000) :
    val_main_v25 (F := Ideal) x0 x1 (ix2 k p) = design x1 (x0 (ix2 p (0 : Fin 2))) (x0 (ix2 p (1 : Fin 2))) k := by
  unfold val_main_v25 design
  by_cases h : k.val < 1024
  · rw [dif_pos h]
    refine (concatenate_pair_apply_left (0 : Fin S1027x120000.rank) _ _ concatenates_S1024x120000_S3x120000_S1027x120000_d0 (ix2 k p) rfl
      (ix2 (⟨k.val, h⟩ : Fin 1024) p) (fun b => ?_)).trans (rbf_apply x0 x1 ⟨k.val, h⟩ p)
    match b with
    | ⟨0, _⟩ => rfl
    | ⟨1, _⟩ => rfl
  · rw [dif_neg h]
    have hk : k.val < 1027 := k.isLt
    refine (concatenate_pair_apply_right (0 : Fin S1027x120000.rank) _ _ concatenates_S1024x120000_S3x120000_S1027x120000_d0 (ix2 k p) rfl rfl
      (ix2 (⟨k.val - 1024, by omega⟩ : Fin 3) p) (fun b hb => ?_) ?_).trans ((aff_apply x0 ⟨k.val - 1024, by omega⟩ p).trans ?_)
    · match b with
      | ⟨0, _⟩ => exact absurd rfl hb
      | ⟨1, _⟩ => rfl
    · show (k.val - 1024) + 1024 = k.val
      omega
    · show (if k.val - 1024 = 0 then (1 : EReal) else if k.val - 1024 = 1 then _ else _) = _
      by_cases h0 : k.val = 1024
      · rw [if_pos (by omega), if_pos h0]
      · rw [if_neg (by omega), if_neg h0]
        by_cases h1 : k.val = 1025
        · rw [if_pos (by omega), if_pos h1]
        · rw [if_neg (by omega), if_neg h1]

/-- THE REFERENCE'S RESULT is the warped points, as a function of its three argument arrays. -/
theorem result_eq : val_main_v28 (F := Ideal) x0 x1 x2 = warpAll x0 x1 x2 := by
  funext i
  obtain ⟨p, j, rfl⟩ : ∃ (p : Fin 120000) (j : Fin 2), i = ix2 p j := ⟨i 0, i 1, eq_ix2 i⟩
  rw [val_main_v28_apply, val_main_v27_apply]
  unfold warpAll warpR
  rw [Ideal.addf_def]
  refine congrArg (_ + ·) (Finset.sum_congr rfl fun k _ => ?_)
  rw [val_main_v26_apply]
  have e1 : idx_main_v26 (lidx_main_v27 (ix2 p j) k) = ix2 k p :=
    funext fun a => Fin.ext (by match a with | ⟨0, _⟩ => rfl | ⟨1, _⟩ => rfl)
  have e2 : ridx_main_v27 (ix2 p j) k = ix2 k j :=
    funext fun a => Fin.ext (by match a with | ⟨0, _⟩ => rfl | ⟨1, _⟩ => rfl)
  rw [e1, e2, design_apply]

end Cert.Warp.RefSide

end
-- ==== Proof.lean ====
/-
  A thin-plate-spline warp of 120000 query points: the tiled kernel against the matrix-product reference, on the
  extended reals.

  Both programs compute, for query point `p = (px, py)` and output column `j`,
      p_j + ∑_{k < 1024} φ(kps k, p) · W[k, j] + W[1024, j] + px · W[1025, j] + py · W[1026, j],
  with `φ = ½ · g · log g` the radial basis of the guarded squared distance `g` between control point `k` and `p`.

  * The reference forms the `[1027, 120000]` design matrix (the radial rows, a row of ones, the x row, the y row),
    multiplies its transpose by `W` and adds the query points: one sum over 1027 rows (`Cert.Warp.RefSide`).
  * The kernel pads the query points to 122880, transposes them, and per tile of 4096 query points accumulates the
    radial sum 256 control points at a time into a zeroed scratch over four trips of a loop, then adds the query
    coordinate and the affine part; the host transposes back and drops the padding. The scratch after `n` trips holds
    the first `n` chunk sums (`Cert.Warp.Accumulator`, by induction on the trips), a tile's output block is the
    chunked arrangement of the warp (`Cert.Warp.Block`), the thirty blocks tile the region's output
    (`Cert.Warp.Tiles`), and the host operations around the region only re-lay the arrays (`Cert.Warp.HostSide`).

  The two arrangements agree for all extended reals (`Cert.Warp.warpK_eq_warpR`): a sum over 1027 rows split as
  4 · 256 + 3, `0 + x = x`, `1 · x = x`, and the commutativity and associativity of `+` and `·`, all of which hold
  at the infinities; the precondition is not used for the values. The three frames are the generated ones (the
  reference's is its generated run with the result dropped), and the idealization rewrote nothing.
-/
import proofs.«167071_j17463337025574_2_alg».proof.Defs
import proofs.«167071_j17463337025574_2_alg».proof.Proof.Gen.Kernel
import proofs.«167071_j17463337025574_2_alg».proof.Proof.Gen.Kernel.Skeleton
import proofs.«167071_j17463337025574_2_alg».proof.Proof.Gen.Kernel.Loops
import proofs.«167071_j17463337025574_2_alg».proof.Proof.Gen.Kernel.Launch
import proofs.«167071_j17463337025574_2_alg».proof.Proof.Gen.Kernel.Points
import proofs.«167071_j17463337025574_2_alg».proof.Proof.Gen.Kernel.Frame
import proofs.«167071_j17463337025574_2_alg».proof.Proof.Gen.KernelIdeal
import proofs.«167071_j17463337025574_2_alg».proof.Proof.Gen.KernelIdeal.Skeleton
import proofs.«167071_j17463337025574_2_alg».proof.Proof.Gen.KernelIdeal.Loops
import proofs.«167071_j17463337025574_2_alg».proof.Proof.Gen.KernelIdeal.Launch
import proofs.«167071_j17463337025574_2_alg».proof.Proof.Gen.KernelIdeal.Points
import proofs.«167071_j17463337025574_2_alg».proof.Proof.Gen.KernelIdeal.Frame
import proofs.«167071_j17463337025574_2_alg».proof.Proof.Gen.ReferenceIdeal
import proofs.«167071_j17463337025574_2_alg».proof.Proof.Gen.ReferenceIdeal.Run
import proofs.«167071_j17463337025574_2_alg».proof.Proof.Gen.ReferenceIdeal.Read
import proofs.«167071_j17463337025574_2_alg».proof.Proof.Gen.Pre_finite_inputs
import proofs.«167071_j17463337025574_2_alg».proof.Proof.HostSide
import proofs.«167071_j17463337025574_2_alg».proof.Proof.RefSide
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both idealized programs end with the warped points
    `Cert.Warp.warpAll` of those arguments in their result buffers. -/
theorem algebraic : Cert.algebraic_KernelIdeal_ReferenceIdeal := by
  intro m ρ m' ρ' _ hagree
  refine ⟨_, Cert.Warp.HostSide.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, Cert.Warp.RefSide.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
